-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S5000x64 : Shape := ⟨2, ![5000, 64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 73
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S50000x64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x64, .f32⟩
  | .hbm, ⟨64, _⟩ => ⟨S850000x1, .f32⟩
  | .hbm, ⟨65, _⟩ => ⟨S850000x64, .f32⟩
  | .hbm, ⟨66, _⟩ => ⟨S850000x64, .f32⟩
  | .hbm, ⟨67, _⟩ => ⟨S_, .f32⟩
  | .hbm, ⟨68, _⟩ => ⟨S50000x64, .f32⟩
  | .hbm, ⟨69, _⟩ => ⟨S850000x1, .i32⟩
  | .hbm, ⟨70, _⟩ => ⟨S50000x64, .f32⟩
  | .hbm, ⟨71, _⟩ => ⟨S1x64, .f32⟩
  | .hbm, ⟨72, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x64_S5000x64_1_0_0_1_n_n_wf : DotDims.WF S5000x64 S64x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x64, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x64, .f32⟩
  | .hbm, ⟨64, _⟩ => ⟨S850000x1, .f32⟩
  | .hbm, ⟨65, _⟩ => ⟨S850000x64, .f32⟩
  | .hbm, ⟨66, _⟩ => ⟨S850000x64, .f32⟩
  | .hbm, ⟨67, _⟩ => ⟨S_, .f32⟩
  | .hbm, ⟨68, _⟩ => ⟨S50000x64, .f32⟩
  | .hbm, ⟨69, _⟩ => ⟨S850000x1, .i32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call2_cst : Ref sig .tc := ⟨.hbm, 74, rfl⟩
abbrev main_call2_v0 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The graph convolution as one function of the node features.

  With h the node features after the dense map, every edge e of the graph extended by one self loop per node
  sends the row h[row e] scaled by its normalised weight to node col e, and node v's aggregate is the sum of
  what it receives. The reference computes the row and column tables, the degrees, the normalised weights,
  the gather of rows and the scatter-add from the edge list and the edge weights alone; only the gathered
  table depends on h. `aggregate` is that computation with h a variable: the reference's own stages for
  everything that does not depend on h, and the gather, the scaling and the scatter-add applied to h.
  `result` then adds the bias row, broadcast down the rows, and clamps at zero from below.
  The reference's result is `result` at h = ins · W; both facts unfold definitions only.
-/
import proofs.«179040_j41669772706306_1_alg».proof.Proof.Gen.ReferenceIdeal.Read

set_option maxRecDepth 16384

noncomputable section

namespace Cert.GcnSpec

open Cert.ReferenceIdeal Cert.ReferenceIdeal.Read Idealize.ShloMosaic

/-- Node features h aggregated over the graph: the scatter-add, by target node, of the rows of h gathered by
    source node and scaled by the normalised edge weights. -/
def aggregate (h : (⟨S50000x64, .f32⟩ : BufTy).Contents (Elt Ideal))
    (x1 : (⟨S2x800000, .i32⟩ : BufTy).Contents (Elt Ideal)) (x2 : (⟨S800000, .f32⟩ : BufTy).Contents (Elt Ideal)) :
    (⟨S50000x64, .f32⟩ : BufTy).Contents (Elt Ideal) :=
  Host.scatterAdd (F := Ideal) (φ := .f32) scatter_S50000x64_S850000x1_S850000x64_1_0_0_1 (val_main_v46 (F := Ideal)) (val_main_v47 (F := Ideal) x1)
    (mulf (F := Ideal) (φ := .f32) (Host.gather (α := Ideal .f32) gather_S50000x64_S850000x1_S850000x64_1_0_n_n_0_1_164 h (val_main_v41 (F := Ideal) x1))
      (val_main_v44 (F := Ideal) x1 x2))

/-- The reference's aggregate is `aggregate` of its dense map. -/
theorem ref_aggregate (x0 : (⟨S50000x64, .f32⟩ : BufTy).Contents (Elt Ideal))
    (x1 : (⟨S2x800000, .i32⟩ : BufTy).Contents (Elt Ideal)) (x2 : (⟨S800000, .f32⟩ : BufTy).Contents (Elt Ideal))
    (x3 : (⟨S64x64, .f32⟩ : BufTy).Contents (Elt Ideal)) :
    val_main_v48 (F := Ideal) x0 x1 x2 x3 = aggregate (val_main_v35 (F := Ideal) x0 x3) x1 x2 := rfl

/-- The layer's output from the features h, the graph and the bias as a [1, 64] row: at (v, j) the larger of
    aggregate(v, j) + bias(0, j) and zero. -/
def result (h : (⟨S50000x64, .f32⟩ : BufTy).Contents (Elt Ideal))
    (x1 : (⟨S2x800000, .i32⟩ : BufTy).Contents (Elt Ideal)) (x2 : (⟨S800000, .f32⟩ : BufTy).Contents (Elt Ideal))
    (brow : (⟨S1x64, .f32⟩ : BufTy).Contents (Elt Ideal)) : (⟨S50000x64, .f32⟩ : BufTy).Contents (Elt Ideal) :=
  fun i => FloatOps.maximumf (F := Ideal) (φ := .f32) (FloatOps.addf (F := Ideal) (φ := .f32) (aggregate h x1 x2 i) (brow (idx_main_v50 i)))
    (FloatOps.ofBits (F := Ideal) .f32 0x00000000#32)

/-- The reference's result is `result` of its dense map and its bias row. -/
theorem ref_result (x0 : (⟨S50000x64, .f32⟩ : BufTy).Contents (Elt Ideal))
    (x1 : (⟨S2x800000, .i32⟩ : BufTy).Contents (Elt Ideal)) (x2 : (⟨S800000, .f32⟩ : BufTy).Contents (Elt Ideal))
    (x3 : (⟨S64x64, .f32⟩ : BufTy).Contents (Elt Ideal)) (x4 : (⟨S64, .f32⟩ : BufTy).Contents (Elt Ideal)) :
    val_main_v52 (F := Ideal) x0 x1 x2 x3 x4
      = result (val_main_v35 (F := Ideal) x0 x3) x1 x2 (val_main_v49 (F := Ideal) x4) := by
  funext i
  rw [val_main_v52_apply, val_main_v51_apply, ref_aggregate, val_main_v50_apply, val_main_call2_v0_apply,
    val_main_call2_cst_apply]
  rfl

end Cert.GcnSpec

end
-- ==== Proof.KernelRun.lean ====
/-
  The idealized kernel's run with its result named.

  The program is two pipelined regions with stretches of host operations between them. Every weakly fair
  execution from a memory with zero counters terminates; the buffers then hold the fold of the segments from
  the launch memory. Read at the result buffer, that fold is what the second region's write-backs leave in its
  output array, folded over its grid from the contents the region was entered with; read at an argument, it is
  the launch contents. This module states the run with that result beside the unchanged arguments; the later
  modules say what the folded write-backs are as a function of the arguments.
-/
import proofs.«179040_j41669772706306_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the second
    region's output array after all its write-backs, and every argument ends as launched. -/
theorem run_named : θ_run defs (onTc (τ := τ) (main (F := F))) ⟨m, fun _ => 0, ρ⟩ (fun r => ∀ c : Dev nD,
      r.2.mem ((c.tc : Thread nD τ).loc main_v50) = (dat1 (V6 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v50 (by decide))).trans (W7_arr m ρ c 2),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Bridge

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«179040_j41669772706306_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.Region1.lean ====
/-
  The second region: bias and clamp, block by block, is the pointwise map on the whole array.

  Its grid has ten points. Point t loads rows 5000 t … 5000 t + 4999 of the aggregate (a [5000, 64] block) and
  the whole [1, 64] bias row, broadcasts the row down the block, adds, takes the larger of the sum and zero, and
  writes the block back as rows 5000 t … 5000 t + 4999 of the output. Entry (p, q) of the block depends on the
  aggregate at (5000 t + p, q) and on the bias at (0, q) only, and the ten row blocks tile the 50000 rows, so
  after the region the output at (v, j) is max(aggregate(v, j) + bias(0, j), 0).
  Everything is stated at the contents V the region is entered with.
-/
import proofs.«179040_j41669772706306_1_alg».proof.Proof.Gen.KernelIdeal.Frame
import proofs.«179040_j41669772706306_1_alg».proof.Proof.LibDotRecord
import Idealize.ShloMosaic.Lib.Pipeline.Value
import Idealize.ShloMosaic.Lib.ValueIdx

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets' : (![0, 0] : Fin 2 → Nat) = fun _ => 0 := funext fun a => by fin_cases a <;> rfl

/-- The body's stored value at entry (p, q) of the block: the larger of x(p, q) + row(0, q) and zero. -/
theorem bias_clamp_block_apply (x0 : Vec Ideal S5000x64 .f32) (x1 : Vec Ideal S1x64 .f32) (p : Fin 5000) (q : Fin 64) :
    k1_pay1 (F := Ideal) x0 x1 (ix2 p q)
      = FloatOps.maximumf (F := Ideal) (φ := .f32) (FloatOps.addf (F := Ideal) (φ := .f32) (x0 (ix2 p q)) (x1 (ix2 (0 : Fin 1) q)))
          (FloatOps.ofBits (F := Ideal) .f32 0x00000000#32) := by
  unfold k1_pay1
  rw [shapeCast_self, shapeCast_self]
  show FloatOps.maximumf (F := Ideal) (φ := .f32) (FloatOps.addf (F := Ideal) (φ := .f32) (x0 (ix2 p q))
      (broadcastTo S5000x64 x1 broadcasts_S1x64_S5000x64 (ix2 p q))) _ = _
  rw [DotRecord.broadcastTo_1b_ab_apply]
  rfl

/-- Where each window's block sits at point t: the aggregate's and the output's at row block t, the bias row's
    at the origin. Decided over the ten points. -/
theorem blocks1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The aggregate's block at point t, at (p, q), is the aggregate at (5000 t + p, q). -/
theorem agg_block_apply (c : Dev nD) (t : Fin cfg1.N) (p : Fin 5000) (q : Fin 64) (i : S50000x64.Idx)
    (h0 : (i 0).val = t.val * 5000 + p.val) (h1 : (i 1).val = q.val) :
    (iblk1 V c 0 t : Vec Ideal S5000x64 .f32) (ix2 p q) = (V c main_v48 : S50000x64.Idx → EReal) i := by
  obtain ⟨e0, e1, -, -, -, -⟩ := blocks1 t
  unfold iblk1
  rw [View.read_apply]
  show V c main_v48 _ = V c main_v48 _
  refine congrArg (V c main_v48) ?_
  funext a
  apply Fin.ext
  match a with
  | ⟨0, _⟩ => show win1_0.index t (0 : Fin 2) * 5000 + 1 * p.val = (i 0).val; rw [e0, h0]; omega
  | ⟨1, _⟩ => show win1_0.index t (1 : Fin 2) * 64 + 1 * q.val = (i 1).val; rw [e1, h1]; omega

/-- The bias row's block at any point is the bias row. -/
theorem bias_block_apply (c : Dev nD) (t : Fin cfg1.N) (q : Fin 64) (i : S1x64.Idx) (h1 : (i 1).val = q.val) :
    (iblk1 V c 1 t : Vec Ideal S1x64 .f32) (ix2 (0 : Fin 1) q) = (V c main_v49 : S1x64.Idx → EReal) i := by
  obtain ⟨-, -, e2, e3, -, -⟩ := blocks1 t
  have h0 : (i 0).val = 0 := by have hlt : (i 0).val < 1 := (i 0).isLt; omega
  unfold iblk1
  rw [View.read_apply]
  show V c main_v49 _ = V c main_v49 _
  refine congrArg (V c main_v49) ?_
  funext a
  apply Fin.ext
  match a with
  | ⟨0, _⟩ => show win1_1.index t (0 : Fin 2) * 1 + 1 * (0 : Fin 1).val = (i 0).val; rw [e2, h0]; rfl
  | ⟨1, _⟩ => show win1_1.index t (1 : Fin 2) * 64 + 1 * q.val = (i 1).val; rw [e3, h1]; omega

/-- An index of the output array lies in point t's block exactly when each coordinate lies in the block's range. -/
theorem mem_out_block1 (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v50).slice (win1_2.rect t)).set ↔ _
  rw [View.set_slice_whole, Rect.mem_set_unit]
  exact Iff.rfl

/-- The pointwise map on the whole arrays: at (v, j) the larger of agg(v, j) + row(0, j) and zero. -/
def biasClamp (agg : S50000x64.Idx → EReal) (row : S1x64.Idx → EReal) : S50000x64.Idx → EReal :=
  fun i => FloatOps.maximumf (F := Ideal) (φ := .f32) (FloatOps.addf (F := Ideal) (φ := .f32) (agg i)
    (row (ix2 (0 : Fin 1) (i 1)))) (FloatOps.ofBits (F := Ideal) .f32 0x00000000#32)

/-- What point t writes back is block t of the pointwise map of the aggregate and the bias row. -/
theorem flushed_bias_clamp (c : Dev nD) (t : Fin cfg1.N) :
    (dat1 V c).flushed 2 t = ((cfg1.win 2).blk t).view.read (Elt Ideal)
      (biasClamp (V c main_v48) (V c main_v49)) := by
  show (cfg1.win 2).cut (grid1.coords t) ((dat1 V c).after 2 t) = _
  rw [after1_2]
  unfold out1_2
  rw [View.canon_unit_zero zero_offsets']
  simp only [View.ld_unit_zero (S := S5000x64) zero_offsets', View.ld_unit_zero (S := S1x64) zero_offsets']
  obtain ⟨-, -, -, -, e4, e5⟩ := blocks1 t
  funext j
  show k1_pay1 (F := Ideal) (iblk1 V c 0 t) (iblk1 V c 1 t) j
    = biasClamp (V c main_v48) (V c main_v49) (((cfg1.win 2).blk t).view.emb j)
  obtain ⟨p, q, rfl⟩ : ∃ (p : Fin 5000) (q : Fin 64), j = ix2 p q := ⟨j 0, j 1, eq_ix2 j⟩
  have hi0 : ((((cfg1.win 2).blk t).view.emb (ix2 p q)) 0).val = t.val * 5000 + p.val := by
    show win1_2.index t (0 : Fin 2) * 5000 + 1 * p.val = _; rw [e4]; omega
  have hi1 : ((((cfg1.win 2).blk t).view.emb (ix2 p q)) 1).val = q.val := by
    show win1_2.index t (1 : Fin 2) * 64 + 1 * q.val = _; rw [e5]; omega
  unfold biasClamp
  rw [bias_clamp_block_apply,
    agg_block_apply V c t p q (((cfg1.win 2).blk t).view.emb (ix2 p q)) hi0 hi1,
    bias_block_apply V c t q (ix2 (0 : Fin 1) ((((cfg1.win 2).blk t).view.emb (ix2 p q)) 1)) hi1]

/-- The ten row blocks cover the output array: row r lies in block r / 5000. -/
theorem cover_bias_clamp (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, e4, e5⟩ := blocks1 t
  refine ⟨t, flush1_2 t, ?_⟩
  rw [mem_out_block1]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 64 ≤ (i 1).val ∧ (i 1).val < win1_2.index t (1 : Fin 2) * 64 + 64
    rw [e5]; omega

/-- After the second region its output array is the pointwise map of the aggregate and the bias row as the region
    found them. -/
theorem final_bias_clamp (c : Dev nD) :
    (dat1 V c).arrAt 2 cfg1.N = biasClamp (V c main_v48) (V c main_v49) :=
  (dat1 V c).arrAt_eq_of_cover 2 _ (fun t _ => flushed_bias_clamp V c t) cover_bias_clamp

end Cert.KernelIdeal.Bridge

end
-- ==== Proof.Region0.lean ====
/-
  The first region: the dense map, block by block, is the whole matrix product.

  Its grid has ten points. Point t loads rows 5000 t … 5000 t + 4999 of the node features (a [5000, 64] block),
  the whole [64, 64] weight matrix, multiplies them on the matrix unit into a zero accumulator and writes the
  product back as rows 5000 t … 5000 t + 4999 of the output. On the extended reals the change to a narrower
  float format is the identity and the product at entry (p, q) of the block is the sum over k of
  ins(5000 t + p, k) · W(k, q): entry (5000 t + p, q) of the whole product ins · W, which is what the host's
  dot_general computes. The ten row blocks tile the 50000 rows, so after the region the output array is ins · W.
  Everything is stated at the contents V the region is entered with.
-/
import proofs.«179040_j41669772706306_1_alg».proof.Proof.Gen.KernelIdeal.Frame
import proofs.«179040_j41669772706306_1_alg».proof.Proof.Gen.ReferenceIdeal.Read
import proofs.«179040_j41669772706306_1_alg».proof.Proof.LibDotRecord
import Idealize.ShloMosaic.Lib.Pipeline.Value
import Idealize.ShloMosaic.Lib.ValueIdx

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at entry (p, q) of the block: the sum over k of lhs(p, k) · rhs(k, q). -/
theorem dense_block_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact DotRecord.matmul_zero_apply dot_S5000x64_S64x64_S5000x64_1_0_0_1_n_n rfl rfl rfl rfl rfl rfl
    (truncf (F := Ideal) .bf16 x0 bitsLt_bf16_f32) (truncf (F := Ideal) .bf16 x1 bitsLt_bf16_f32) none p q

/-- Where each window's block sits at point t: the features' and the output's at row block t, the weights' at the
    origin. Decided over the ten points. -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point t, at (p, k), is the features array at (5000 t + p, k). -/
theorem ins_block_apply (c : Dev nD) (t : Fin cfg0.N) (p : Fin 5000) (k : Fin 64) (i : S50000x64.Idx)
    (h0 : (i 0).val = t.val * 5000 + p.val) (h1 : (i 1).val = k.val) :
    (iblk0 V c 0 t : Vec Ideal S5000x64 .f32) (ix2 p k) = (V c main_arg0 : S50000x64.Idx → EReal) i := by
  obtain ⟨e0, e1, -, -, -, -⟩ := blocks0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = (i 0).val; rw [e0, h0]; omega
  | ⟨1, _⟩ => show win0_0.index t (1 : Fin 2) * 64 + 1 * k.val = (i 1).val; rw [e1, h1]; omega

/-- The weights' block at any point is the weight matrix. -/
theorem w_block_apply (c : Dev nD) (t : Fin cfg0.N) (k : Fin 64) (q : Fin 64) (i : S64x64.Idx)
    (h0 : (i 0).val = k.val) (h1 : (i 1).val = q.val) :
    (iblk0 V c 1 t : Vec Ideal S64x64 .f32) (ix2 k q) = (V c main_arg3 : S64x64.Idx → EReal) i := by
  obtain ⟨-, -, e2, e3, -, -⟩ := blocks0 t
  unfold iblk0
  rw [View.read_apply]
  show V c main_arg3 _ = V c main_arg3 _
  refine congrArg (V c main_arg3) ?_
  funext a
  apply Fin.ext
  match a with
  | ⟨0, _⟩ => show win0_1.index t (0 : Fin 2) * 64 + 1 * k.val = (i 0).val; rw [e2, h0]; omega
  | ⟨1, _⟩ => show win0_1.index t (1 : Fin 2) * 64 + 1 * q.val = (i 1).val; rw [e3, h1]; omega

/-- An index of the output array lies in point t's block exactly when each coordinate lies in the block's range. -/
theorem mem_out_block0 (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- What point t writes back is block t of the whole product of the features and the weights. -/
theorem flushed_dense (c : Dev nD) (t : Fin cfg0.N) :
    (dat0 V c).flushed 2 t = ((cfg0.win 2).blk t).view.read (Elt Ideal)
      (Cert.ReferenceIdeal.Read.val_main_v35 (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x64) zero_offsets]
  obtain ⟨-, -, -, -, e4, e5⟩ := blocks0 t
  funext j
  show k0_pay1 (F := Ideal) (iblk0 V c 0 t) (iblk0 V c 1 t) j
    = Cert.ReferenceIdeal.Read.val_main_v35 (F := Ideal) (V c main_arg0) (V c main_arg3) (((cfg0.win 2).blk t).view.emb j)
  obtain ⟨p, q, rfl⟩ : ∃ (p : Fin 5000) (q : Fin 64), j = ix2 p q := ⟨j 0, j 1, eq_ix2 j⟩
  have hi0 : ((((cfg0.win 2).blk t).view.emb (ix2 p q)) 0).val = t.val * 5000 + p.val := by
    show win0_2.index t (0 : Fin 2) * 5000 + 1 * p.val = _; rw [e4]; omega
  have hi1 : ((((cfg0.win 2).blk t).view.emb (ix2 p q)) 1).val = q.val := by
    show win0_2.index t (1 : Fin 2) * 64 + 1 * q.val = _; rw [e5]; omega
  rw [Cert.ReferenceIdeal.Read.val_main_v35_apply, dense_block_apply]
  refine Finset.sum_congr rfl fun k _ => ?_
  rw [ins_block_apply V c t p k (Cert.ReferenceIdeal.Read.lidx_main_v35 (((cfg0.win 2).blk t).view.emb (ix2 p q)) k) hi0 rfl,
    w_block_apply V c t k q (Cert.ReferenceIdeal.Read.ridx_main_v35 (((cfg0.win 2).blk t).view.emb (ix2 p q)) k) rfl hi1]

/-- The ten row blocks cover the output array: row r lies in block r / 5000. -/
theorem cover_dense (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, e4, e5⟩ := blocks0 t
  refine ⟨t, flush0_2 t, ?_⟩
  rw [mem_out_block0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-- After the first region its output array is the whole product of the features and the weights as the region
    found them. -/
theorem final_dense (c : Dev nD) :
    (dat0 V c).arrAt 2 cfg0.N
      = Cert.ReferenceIdeal.Read.val_main_v35 (F := Ideal) (V c main_arg0) (V c main_arg3) :=
  (dat0 V c).arrAt_eq_of_cover 2 _ (fun t _ => flushed_dense V c t) cover_dense

end Cert.KernelIdeal.Bridge

end
-- ==== Proof.Middle.lean ====
/-
  Between the two regions: the host's graph aggregation, read from the contents the first region leaves.

  The host operations between the regions build the row and column tables (the edge list's two rows, each
  followed by 0 … 49999 for the self loops), the weights (the edge weights followed by ones), the degrees (the
  scatter-add of the weights by column) and the two comparisons of the degrees with zero; then the guarded inverse
  square roots; then the normalised weights, the gather of the rows of the first region's output by source node,
  their scaling, the scatter-add by target node, and the bias reshaped to a [1, 64] row.

  They are read in the order they run. The first stretch on its own: each table it leaves is the reference's table
  of the same edge list and edge weights. The two guards, three operations each: they are stated on values moved to
  their buffers' types and back, a move that is the identity and is removed before the two sides are compared. The
  last stretch from ANY contents holding the tables and the inverse square roots: it writes into the second region's
  first operand `aggregate` of the dense-map output, and into its second operand the bias as a row.
  Put together and read at what the first region leaves — its output array at the whole product ins · W, the edge
  list, the edge weights and the bias still as launched — this is what the second region is entered with.
-/
import proofs.«179040_j41669772706306_1_alg».proof.Proof.Gen.KernelIdeal.Frame
import proofs.«179040_j41669772706306_1_alg».proof.Proof.Spec
import proofs.«179040_j41669772706306_1_alg».proof.Proof.Region0
import Idealize.ShloMosaic.Lib.StableHlo.Run
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.StableHlo
open Cert.ReferenceIdeal.Read (val_main_v3 val_main_v6 val_main_v8 val_main_v11 val_main_v13 val_main_v15 val_main_cst_3)

/-! ## The first stretch: the tables -/

section Tables
variable (W : Valuation τ sig (Elt Ideal))

/-- The row table: the edge list's first row followed by 0 … 49999. -/
theorem tables_rows : after hostOps1 W (Proc.devRef .tc main_v4) = val_main_v3 (F := Ideal) (W (Proc.devRef .tc main_arg1)) := by
  after_results_simp; rfl
/-- The column table: the edge list's second row followed by 0 … 49999. -/
theorem tables_cols : after hostOps1 W (Proc.devRef .tc main_v7) = val_main_v6 (F := Ideal) (W (Proc.devRef .tc main_arg1)) := by
  after_results_simp; rfl
/-- The weights: the edge weights followed by ones. -/
theorem tables_weights : after hostOps1 W (Proc.devRef .tc main_v9) = val_main_v8 (F := Ideal) (W (Proc.devRef .tc main_arg2)) := by
  after_results_simp; rfl
/-- The degrees: the weights scatter-added by column. -/
theorem tables_degrees : after hostOps1 W (Proc.devRef .tc main_v12)
    = val_main_v11 (F := Ideal) (W (Proc.devRef .tc main_arg1)) (W (Proc.devRef .tc main_arg2)) := by
  after_results_simp; rfl
/-- Which degrees are positive, as the outer guard reads it, -/
theorem tables_positive_outer : after hostOps1 W (Proc.devRef .tc main_v14)
    = val_main_v13 (F := Ideal) (W (Proc.devRef .tc main_arg1)) (W (Proc.devRef .tc main_arg2)) := by
  after_results_simp; rfl
/-- and as the inner guard reads it. -/
theorem tables_positive_inner : after hostOps1 W (Proc.devRef .tc main_v16)
    = val_main_v15 (F := Ideal) (W (Proc.devRef .tc main_arg1)) (W (Proc.devRef .tc main_arg2)) := by
  after_results_simp; rfl
/-- The constant one the inner guard substitutes. -/
theorem tables_one : after hostOps1 W (Proc.devRef .tc main_cst_3) = val_main_cst_3 (F := Ideal) := by
  after_results_simp; rfl
/-- The first stretch writes neither the dense-map output nor the bias. -/
theorem tables_keep_dense : after hostOps1 W (Proc.devRef .tc main_v0) = W (Proc.devRef .tc main_v0) := by
  after_results_simp
theorem tables_keep_bias : after hostOps1 W (Proc.devRef .tc main_arg4) = W (Proc.devRef .tc main_arg4) := by
  after_results_simp

end Tables

/-! ## The guarded inverse square roots: two guards around one rsqrt -/

open Cert.ReferenceIdeal.Read (val_main_v16 val_main_v17 val_main_v18 val_main_cst_4)

section Guards
variable (T : Valuation τ sig (Elt Ideal))
    (x1 : (⟨Cert.ReferenceIdeal.S2x800000, .i32⟩ : BufTy).Contents (Elt Ideal))
    (x2 : (⟨Cert.ReferenceIdeal.S800000, .f32⟩ : BufTy).Contents (Elt Ideal))

/-- The inner guard: the degree where it is positive, one elsewhere. -/
theorem guard_inner (h12 : T (Proc.devRef .tc main_v12) = val_main_v11 (F := Ideal) x1 x2)
    (h16 : T (Proc.devRef .tc main_v16) = val_main_v15 (F := Ideal) x1 x2)
    (h1 : T (Proc.devRef .tc main_cst_3) = val_main_cst_3 (F := Ideal)) :
    after hostOps1_1 T (Proc.devRef .tc main_v17) = val_main_v16 (F := Ideal) x1 x2 := by
  after_results_simp
  simp only [cast_eq]
  rw [h12, h16, h1]
  rfl

/-- Its inverse square root. -/
theorem guard_rsqrt (h17 : T (Proc.devRef .tc main_v17) = val_main_v16 (F := Ideal) x1 x2) :
    after hostOps1_2 T (Proc.devRef .tc main_v18) = val_main_v17 (F := Ideal) x1 x2 := by
  after_results_simp
  rw [h17]
  rfl
/-- The constant zero the outer guard substitutes. -/
theorem guard_zero : after hostOps1_2 T (Proc.devRef .tc main_cst_4) = val_main_cst_4 (F := Ideal) := by
  after_results_simp; rfl

/-- The outer guard: that inverse square root where the degree is positive, zero elsewhere. -/
theorem guard_outer (h14 : T (Proc.devRef .tc main_v14) = val_main_v13 (F := Ideal) x1 x2)
    (h18 : T (Proc.devRef .tc main_v18) = val_main_v17 (F := Ideal) x1 x2)
    (h0 : T (Proc.devRef .tc main_cst_4) = val_main_cst_4 (F := Ideal)) :
    after hostOps1_3 T (Proc.devRef .tc main_v19) = val_main_v18 (F := Ideal) x1 x2 := by
  after_results_simp
  simp only [cast_eq]
  rw [h14, h18, h0]
  rfl

end Guards

/-- A buffer that a stretch does not write keeps its contents through it: the three guard stretches write none of the
    tables, the dense-map output or the bias. -/
theorem guards_keep (T : Valuation τ sig (Elt Ideal)) (b : Ref sig .tc)
    (hb : b = main_v4 ∨ b = main_v7 ∨ b = main_v9 ∨ b = main_v0 ∨ b = main_arg4) :
    after hostOps1_3 (after hostOps1_2 (after hostOps1_1 T)) (Proc.devRef .tc b) = T (Proc.devRef .tc b) := by
  rcases hb with rfl | rfl | rfl | rfl | rfl <;> after_results_simp
theorem guard_inner_keep_outer_flag (T : Valuation τ sig (Elt Ideal)) :
    after hostOps1_1 T (Proc.devRef .tc main_v14) = T (Proc.devRef .tc main_v14) := by after_results_simp
theorem guard_rsqrt_keep_outer_flag (T : Valuation τ sig (Elt Ideal)) :
    after hostOps1_2 T (Proc.devRef .tc main_v14) = T (Proc.devRef .tc main_v14) := by after_results_simp

/-! ## The last stretch, from any contents holding the tables and the inverse square roots -/

set_option maxHeartbeats 4000000 in
/-- From contents T, the last stretch leaves in the second region's first operand the scatter-add by the column table
    of the rows of T's dense-map output gathered by the row table and scaled by the weights normalised at both ends. -/
theorem last_aggregate (T : Valuation τ sig (Elt Ideal))
    (x1 : (⟨Cert.ReferenceIdeal.S2x800000, .i32⟩ : BufTy).Contents (Elt Ideal))
    (x2 : (⟨Cert.ReferenceIdeal.S800000, .f32⟩ : BufTy).Contents (Elt Ideal))
    (h4 : T (Proc.devRef .tc main_v4) = val_main_v3 (F := Ideal) x1)
    (h7 : T (Proc.devRef .tc main_v7) = val_main_v6 (F := Ideal) x1)
    (h9 : T (Proc.devRef .tc main_v9) = val_main_v8 (F := Ideal) x2)
    (h19 : T (Proc.devRef .tc main_v19) = val_main_v18 (F := Ideal) x1 x2) :
    after hostOps1_4 T (Proc.devRef .tc main_v48) = Cert.GcnSpec.aggregate (T (Proc.devRef .tc main_v0)) x1 x2 := by
  after_results_simp
  rw [h4, h7, h9, h19]
  rfl

/-- and in its second operand T's bias reshaped to a row. -/
theorem last_bias (T : Valuation τ sig (Elt Ideal)) :
    after hostOps1_4 T (Proc.devRef .tc main_v49) = shapeCast S1x64 (T (Proc.devRef .tc main_arg4)) shapeCasts_S64_S1x64 := by
  after_results_simp
  rfl

/-! ## The four later stretches together -/

/-- From contents T holding the tables, the four later stretches leave `aggregate` of T's dense-map output, -/
theorem rest_aggregate (T : Valuation τ sig (Elt Ideal))
    (x1 : (⟨Cert.ReferenceIdeal.S2x800000, .i32⟩ : BufTy).Contents (Elt Ideal))
    (x2 : (⟨Cert.ReferenceIdeal.S800000, .f32⟩ : BufTy).Contents (Elt Ideal))
    (h4 : T (Proc.devRef .tc main_v4) = val_main_v3 (F := Ideal) x1)
    (h7 : T (Proc.devRef .tc main_v7) = val_main_v6 (F := Ideal) x1)
    (h9 : T (Proc.devRef .tc main_v9) = val_main_v8 (F := Ideal) x2)
    (h12 : T (Proc.devRef .tc main_v12) = val_main_v11 (F := Ideal) x1 x2)
    (h14 : T (Proc.devRef .tc main_v14) = val_main_v13 (F := Ideal) x1 x2)
    (h16 : T (Proc.devRef .tc main_v16) = val_main_v15 (F := Ideal) x1 x2)
    (h1 : T (Proc.devRef .tc main_cst_3) = val_main_cst_3 (F := Ideal)) :
    after hostOps1_4 (after hostOps1_3 (after hostOps1_2 (after hostOps1_1 T))) (Proc.devRef .tc main_v48)
      = Cert.GcnSpec.aggregate (T (Proc.devRef .tc main_v0)) x1 x2 := by
  have g17 := guard_inner T x1 x2 h12 h16 h1
  have g18 := guard_rsqrt (after hostOps1_1 T) x1 x2 g17
  have g19 := guard_outer (after hostOps1_2 (after hostOps1_1 T)) x1 x2
    ((guard_rsqrt_keep_outer_flag _).trans ((guard_inner_keep_outer_flag T).trans h14)) g18 (guard_zero _)
  refine (last_aggregate (after hostOps1_3 (after hostOps1_2 (after hostOps1_1 T))) x1 x2
    ((guards_keep T main_v4 (.inl rfl)).trans h4) ((guards_keep T main_v7 (.inr (.inl rfl))).trans h7)
    ((guards_keep T main_v9 (.inr (.inr (.inl rfl)))).trans h9) g19).trans ?_
  rw [guards_keep T main_v0 (.inr (.inr (.inr (.inl rfl))))]

/-- and T's bias reshaped to a row. -/
theorem rest_bias (T : Valuation τ sig (Elt Ideal)) :
    after hostOps1_4 (after hostOps1_3 (after hostOps1_2 (after hostOps1_1 T))) (Proc.devRef .tc main_v49)
      = shapeCast S1x64 (T (Proc.devRef .tc main_arg4)) shapeCasts_S64_S1x64 := by
  rw [last_bias, guards_keep T main_arg4 (.inr (.inr (.inr (.inr rfl))))]

/-! ## The five stretches together -/

/-- From any buffer contents W, the five stretches leave in the second region's first operand the graph aggregation
    of W's dense-map output, edge list and edge weights, -/
theorem middle_aggregate (W : Valuation τ sig (Elt Ideal)) :
    after hostOps1_4 (after hostOps1_3 (after hostOps1_2 (after hostOps1_1 (after hostOps1 W)))) (Proc.devRef .tc main_v48)
      = Cert.GcnSpec.aggregate (W (Proc.devRef .tc main_v0)) (W (Proc.devRef .tc main_arg1)) (W (Proc.devRef .tc main_arg2)) :=
  (rest_aggregate (after hostOps1 W) (W (Proc.devRef .tc main_arg1)) (W (Proc.devRef .tc main_arg2))
    (tables_rows W) (tables_cols W) (tables_weights W) (tables_degrees W) (tables_positive_outer W)
    (tables_positive_inner W) (tables_one W)).trans
    (congrArg (fun h => Cert.GcnSpec.aggregate h (W (Proc.devRef .tc main_arg1)) (W (Proc.devRef .tc main_arg2))) (tables_keep_dense W))

/-- and in its second operand the bias reshaped to a row. -/
theorem middle_bias (W : Valuation τ sig (Elt Ideal)) :
    after hostOps1_4 (after hostOps1_3 (after hostOps1_2 (after hostOps1_1 (after hostOps1 W)))) (Proc.devRef .tc main_v49)
      = shapeCast S1x64 (W (Proc.devRef .tc main_arg4)) shapeCasts_S64_S1x64 :=
  (rest_bias (after hostOps1 W)).trans (congrArg (fun b => shapeCast S1x64 b shapeCasts_S64_S1x64) (tables_keep_bias W))

/-! ## At the contents the first region leaves -/

variable (m : (ℓ : Loc nD τ sig) → Buf (Elt Ideal) ℓ) (ρ : Dev nD → PrngReg)

/-- The first region leaves its output array at the whole product of the launch features and weights. -/
theorem exit0_dense (c : Dev nD) :
    W1 m ρ c (Proc.devRef .tc main_v0)
      = Cert.ReferenceIdeal.Read.val_main_v35 (F := Ideal) (m ((c : Thread nD τ).loc main_arg0)) (m ((c : Thread nD τ).loc main_arg3)) :=
  (W1_arr m ρ c 2).trans (final_dense (V0 m ρ) c)

/-- It leaves the edge list, the edge weights and the bias as launched: none is one of its arrays. -/
theorem exit0_edges (c : Dev nD) : W1 m ρ c (Proc.devRef .tc main_arg1) = m ((c : Thread nD τ).loc main_arg1) :=
  W1_of_ne m ρ c main_arg1 (by decide)
theorem exit0_weights (c : Dev nD) : W1 m ρ c (Proc.devRef .tc main_arg2) = m ((c : Thread nD τ).loc main_arg2) :=
  W1_of_ne m ρ c main_arg2 (by decide)
theorem exit0_bias (c : Dev nD) : W1 m ρ c (Proc.devRef .tc main_arg4) = m ((c : Thread nD τ).loc main_arg4) :=
  W1_of_ne m ρ c main_arg4 (by decide)

/-- The second region is entered with its first operand at the aggregation of ins · W over the graph, -/
theorem entry1_aggregate (c : Dev nD) :
    V6 m ρ c main_v48 = Cert.GcnSpec.aggregate
      (Cert.ReferenceIdeal.Read.val_main_v35 (F := Ideal) (m ((c : Thread nD τ).loc main_arg0)) (m ((c : Thread nD τ).loc main_arg3)))
      (m ((c : Thread nD τ).loc main_arg1)) (m ((c : Thread nD τ).loc main_arg2)) := by
  show after hostOps1_4 (after hostOps1_3 (after hostOps1_2 (after hostOps1_1 (after hostOps1 (W1 m ρ c))))) (Proc.devRef .tc main_v48) = _
  rw [middle_aggregate (W1 m ρ c), exit0_dense, exit0_edges, exit0_weights]

/-- and its second at the launch bias as a row. -/
theorem entry1_bias (c : Dev nD) :
    V6 m ρ c main_v49 = shapeCast S1x64 (m ((c : Thread nD τ).loc main_arg4)) shapeCasts_S64_S1x64 := by
  show after hostOps1_4 (after hostOps1_3 (after hostOps1_2 (after hostOps1_1 (after hostOps1 (W1 m ρ c))))) (Proc.devRef .tc main_v49) = _
  rw [middle_bias (W1 m ρ c), exit0_bias]

end Cert.KernelIdeal.Bridge

end
-- ==== Proof.Bridge.lean ====
/-
  The kernel's result is the graph convolution of the launch arguments.

  The second region leaves max(agg(v, j) + row(0, j), 0) at (v, j), where agg is the aggregation of ins · W over
  the graph and row is the bias reshaped to [1, 64]. The reshape puts bias(j) at (0, j); the reference broadcasts
  the bias to the same row, bias(j) at (0, j). So the kernel's result is `result` of ins · W, the graph, and the
  reference's bias row: the same function the reference computes.
-/
import proofs.«179040_j41669772706306_1_alg».proof.Proof.KernelRun
import proofs.«179040_j41669772706306_1_alg».proof.Proof.Region1
import proofs.«179040_j41669772706306_1_alg».proof.Proof.Middle
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

/-- The pointwise map of an aggregate and the bias reshaped to a row is the layer's output with the bias broadcast
    to a row: both rows hold bias(j) at (0, j). -/
theorem biasClamp_eq_result (h : (⟨Cert.ReferenceIdeal.S50000x64, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S64, .f32⟩ : BufTy).Contents (Elt Ideal)) :
    biasClamp (Cert.GcnSpec.aggregate h x1 x2) (shapeCast S1x64 x4 shapeCasts_S64_S1x64)
      = Cert.GcnSpec.result h x1 x2 (Cert.ReferenceIdeal.Read.val_main_v49 (F := Ideal) x4) := by
  funext i
  obtain ⟨v, j, rfl⟩ : ∃ (v : Fin 50000) (j : Fin 64), i = ix2 v j := ⟨i 0, i 1, eq_ix2 i⟩
  -- the reference's row index at (v, j) is column j of the bias
  have hrow : Cert.ReferenceIdeal.Read.idx_main_v49 (Cert.ReferenceIdeal.Read.idx_main_v50 (ix2 v j)) = ix1 j :=
    funext fun a => Fin.ext (by match a with | ⟨0, _⟩ => rfl)
  unfold biasClamp Cert.GcnSpec.result
  show FloatOps.maximumf (F := Ideal) (φ := .f32) (FloatOps.addf (F := Ideal) (φ := .f32) (Cert.GcnSpec.aggregate h x1 x2 (ix2 v j))
      (shapeCast S1x64 x4 shapeCasts_S64_S1x64 (ix2 (0 : Fin 1) j))) (FloatOps.ofBits (F := Ideal) .f32 0x00000000#32)
    = FloatOps.maximumf (F := Ideal) (φ := .f32) (FloatOps.addf (F := Ideal) (φ := .f32) (Cert.GcnSpec.aggregate h x1 x2 (ix2 v j))
      (Cert.ReferenceIdeal.Read.val_main_v49 (F := Ideal) x4 (Cert.ReferenceIdeal.Read.idx_main_v50 (ix2 v j)))) (FloatOps.ofBits (F := Ideal) .f32 0x00000000#32)
  rw [shapeCast_a_1a_apply, Cert.ReferenceIdeal.Read.val_main_v49_apply, hrow]

variable (m : (ℓ : Loc nD τ sig) → Buf (Elt Ideal) ℓ) (ρ : Dev nD → PrngReg)

/-- After the second region its output array is the layer's output from the launch arguments. -/
theorem kernel_result (c : Dev nD) :
    (dat1 (V6 m ρ) c).arrAt 2 cfg1.N
      = Cert.GcnSpec.result
          (Cert.ReferenceIdeal.Read.val_main_v35 (F := Ideal) (m ((c : Thread nD τ).loc main_arg0)) (m ((c : Thread nD τ).loc main_arg3)))
          (m ((c : Thread nD τ).loc main_arg1)) (m ((c : Thread nD τ).loc main_arg2))
          (Cert.ReferenceIdeal.Read.val_main_v49 (F := Ideal) (m ((c : Thread nD τ).loc main_arg4))) := by
  exact (final_bias_clamp (V6 m ρ) c).trans
    ((congrArg₂ biasClamp (entry1_aggregate m ρ c) (entry1_bias m ρ c)).trans (biasClamp_eq_result _ _ _ _))

/-- The kernel's run, read: the result buffer at the layer's output from the launch arguments, the arguments unchanged. -/
theorem run_value : θ_run defs (onTc (τ := τ) (main (F := Ideal))) ⟨m, fun _ => 0, ρ⟩ (fun r => ∀ c : Dev nD,
      r.2.mem ((c.tc : Thread nD τ).loc main_v50)
        = Cert.GcnSpec.result
          (Cert.ReferenceIdeal.Read.val_main_v35 (F := Ideal) (m ((c : Thread nD τ).loc main_arg0)) (m ((c : Thread nD τ).loc main_arg3)))
          (m ((c : Thread nD τ).loc main_arg1)) (m ((c : Thread nD τ).loc main_arg2))
          (Cert.ReferenceIdeal.Read.val_main_v49 (F := Ideal) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (kernel_result m ρ c), (h c).2⟩) (run_named m ρ)

end Cert.KernelIdeal.Bridge

end
-- ==== Proof.lean ====
/-
  A graph-convolution layer on 50000 nodes and 800000 weighted edges, as two pipelined regions around host
  operations, against its plain reference: equal results on the extended reals.

  The kernel computes h = ins · W in a first region (ten row blocks of 5000 nodes, each a [5000, 64] by [64, 64]
  product on the matrix unit into a zero accumulator), lets the host aggregate h over the graph (self loops added,
  weights normalised by the inverse square roots of the degrees, rows of h gathered by source node, scaled and
  scatter-added by target node), and adds the bias and clamps at zero in a second region (ten row blocks again).
  The reference runs the same host aggregation on the host's own product ins · W, adds the bias broadcast over the
  rows, and takes the maximum with zero.

  On the extended reals a change of float format is the identity and both matrix products at entry (v, j) are the
  sum over k of ins(v, k) · W(k, j), so the first region's output array is the reference's product, block by block
  (Region0). The host operations between the regions are the reference's, so what the second region is entered with is
  the same aggregation of that product (Middle); it is never opened. The second region's output at (v, j) is
  max(aggregate(v, j) + bias(j), 0), block by block (Region1), which is the reference's last three operations
  (Spec, Bridge). No law of arithmetic beyond reading a sum is used, so the finiteness of the inputs is not needed.

  The three frames: the two kernels' are the generated frame certificates; the reference's is its generated run with
  the result dropped. The idealization rewrote nothing, so there is nothing to preserve.
-/
import proofs.«179040_j41669772706306_1_alg».proof.Defs
import proofs.«179040_j41669772706306_1_alg».proof.Proof.Gen.Kernel
import proofs.«179040_j41669772706306_1_alg».proof.Proof.Gen.Kernel.Skeleton
import proofs.«179040_j41669772706306_1_alg».proof.Proof.Gen.Kernel.Launch
import proofs.«179040_j41669772706306_1_alg».proof.Proof.Gen.Kernel.Points
import proofs.«179040_j41669772706306_1_alg».proof.Proof.Gen.Kernel.Frame
import proofs.«179040_j41669772706306_1_alg».proof.Proof.Gen.KernelIdeal
import proofs.«179040_j41669772706306_1_alg».proof.Proof.Gen.KernelIdeal.Skeleton
import proofs.«179040_j41669772706306_1_alg».proof.Proof.Gen.KernelIdeal.Launch
import proofs.«179040_j41669772706306_1_alg».proof.Proof.Gen.KernelIdeal.Points
import proofs.«179040_j41669772706306_1_alg».proof.Proof.Gen.KernelIdeal.Frame
import proofs.«179040_j41669772706306_1_alg».proof.Proof.Gen.ReferenceIdeal
import proofs.«179040_j41669772706306_1_alg».proof.Proof.Gen.Pre_finite_inputs
import proofs.«179040_j41669772706306_1_alg».proof.Proof.Gen.ReferenceIdeal.Run
import proofs.«179040_j41669772706306_1_alg».proof.Proof.Gen.ReferenceIdeal.Read
import proofs.«179040_j41669772706306_1_alg».proof.Proof.Spec
import proofs.«179040_j41669772706306_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the result buffer at the layer's output from those
    arguments: the kernel by its run read through the two regions, the reference by its run's composed term, which is the
    same function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Bridge.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.GcnSpec.ref_result, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
